-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S4096x256 : Shape := ⟨2, ![4096, 256]⟩
abbrev S1x4096 : Shape := ⟨2, ![1, 4096]⟩
abbrev S128x4096 : Shape := ⟨2, ![128, 4096]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .bf16⟩
  | .local _ .vmem, ⟨3, _⟩ => ⟨S4096x256, .bf16⟩
  | .local _ .vmem, ⟨4, _⟩ => ⟨S128x4096, .f32⟩
  | .local _ .vmem, ⟨5, _⟩ => ⟨S128x4096, .f32⟩
  | .local _ .vmem, ⟨6, _⟩ => ⟨S4096x4096, .bf16⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x4096_S256x4096_0_0 : ∀ a, (![0, 0] : Fin 2 → Nat) a + S256x4096.size a ≤ S256x4096.size a
  h_S256x4096 : 0 < S256x4096.numel
  natLt_1_32 : 1 < 32
  bitsLt_bf16_f32 : FTy.bits .bf16 < FTy.bits .f32
  transposes_S256x4096_p1_0_S4096x256 : S256x4096.Transposes [1, 0] S4096x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S8192x4096.size a
  hwx1_3 : ∀ i : grid1.Coords, EltTy.bits .f32 = 32 ∨ (Rect.block (s := S8192x4096) S128x4096.size (cc1_transform_3 i) (hinb1_3 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S4096x4096, .f32⟩
  | .hbm, ⟨11, _⟩ => ⟨S4096x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KernelRun.lean ====
/-
  The idealized kernel's run with its result array named.

  The program is two kernel regions with one host reshape between them. Every weakly fair execution terminates without a
  fault; at the end the three argument arrays are as launched and the result array holds what the second region's
  write-backs leave: the fold, over that region's grid points in order, of each point's block written into the array the
  region was entered with. The contents each region is entered with are themselves the fold through the program: the launch
  memory, then the first region's write-backs, then the reshape.
-/
import proofs.«138925_j15066745274546_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds when the program is launched: every unscoped buffer at the launch memory, the generator register at
    some state, and nothing owed to another core. -/
abbrev atLaunch (c : Dev nD) : sProp 𝕄 :=
  iprop(StableHlo.held (c : Thread nD τ) (Pipeline.ucRefs τ sig) (W0 m ρ c) ∗ R c)

/-- What the final memory is read as, core by core: every unscoped buffer at the contents after the second region. -/
abbrev readsAs (c : Dev nD) (s : MemSt nD τ sig (Elt F)) : Prop :=
  ∀ b ∈ Pipeline.ucRefs τ sig, s.mem (((c : Thread nD τ)).1, b) = W3 m ρ c b

set_option backward.isDefEq.respectTransparency.types false in
/-- The run: the result array ends at the second region's folded write-backs, the arguments as launched. The program is
    its three segments (region, reshape, region), each entered from the state the one before leaves; the last state is
    read against the final memory, and the result array's reference is the second region's fourth window's array. -/
theorem run_named : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit (pcfgs (F := F)) adm (pdats m ρ) () cellOf_inj emb₁ defs₀ 𝒱₀ L lv m ρ main (segs m ρ)
    (hmain := fun c Q => by rw [main_run m ρ c])
    (hnd := ?pipesOnce)
    (O₀ := 0) (hL := fun _ _ => rfl) (G := fun _ => iprop(emp))
    (u₀ := initOf (Pipeline.cells cfgs cellOf_inj) (Pipeline.launchToks cfgs cellOf_inj))
    (hu₀ := ?tokens)
    (T₀ := atLaunch m ρ) (Tₙ := Tₙ m ρ)
    (hch := ⟨fun _ => .rfl, fun _ => .rfl, fun _ => .rfl, fun _ => .rfl⟩)
    (hinit := ?firstState)
    (QY := readsAs m ρ)
    (hfin := ?readBack)
    (hQ := fun s h c =>
      ⟨(h c _ (mem_uc main_v2 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)
  case pipesOnce =>
    -- each of the two pipelines is entered once: the segments' pipelines are the list [0, 1]
    simp only [segs, Pipeline.Seg.pipes_host, Pipeline.Seg.pipes_region, Pipeline.Seg.pipes_nil]; decide
  case tokens =>
    -- the launch element is the two pipelines' initial element (the pinned configurations are the printed ones), and a
    -- product of empty resources over the cores is empty
    have hemp : (BI.emp : sProp 𝕄) ⊢ bigSep Finset.univ (fun _ : Dev nD => (BI.emp : sProp 𝕄)) := by
      rw [BI.bigSep_emp_const]
    -- owning the launch element is, by definition, owning its image in the combined algebra
    have hown : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    iintro Hu
    imodintro
    isplitl [Hu]
    · iapply hown
      iexact Hu
    · iapply hemp
      iempintro
  case firstState =>
    -- core by core: the unscoped buffers at the launch memory are the first state's buffers; the generator register and
    -- the empty debt are kept, each at some state; the semaphore counters and the launch credit are not needed
    refine Pipeline.initEach L lv fun c => ?_
    have hbufs : (unscopedBufs (Ix := Unit) (Name := ℕ) (U := UR sig nD τ) (Lvl := ℕ) c (fun b => m ((c : Thread nD τ).loc b)) : sProp 𝕄)
        = StableHlo.held (c : Thread nD τ) (Pipeline.ucRefs τ sig) (W0 m ρ c) := Pipeline.unscopedBufs_held c (W0 m ρ c)
    rw [hbufs]
    iintro ⟨⟨Hbufs, -, Howes, -, Hreg, -⟩, -⟩
    imodintro
    isplitl [Hbufs]
    · iexact Hbufs
    isplitl [Hreg]
    · iexists _; iexact Hreg
    · iexists ∅; iexact Howes
  case readBack =>
    -- the last state holds every unscoped buffer at the contents after the second region, so the final memory reads
    -- those contents at each of them
    intro c s'
    iintro ⟨⟨Hbufs, -⟩, HSI⟩
    unfold StableHlo.held
    imodintro
    iapply (pointsTo_read_all (Pipeline.ucRefs τ sig) (fun b => (((c : Thread nD τ)).1, b)) (W3 m ρ c) s')
    isplitl [Hbufs]
    · iexact Hbufs
    · iexact HSI

end Cert.KernelIdeal.Whole

end
-- ==== Proof.ProductPayload.lean ====
/-
  The second pass's stored block, read at an index.

  The body multiplies its 128 × 4096 block of `x` by the whole 4096 × 4096 table into a zero accumulator and adds the
  bias row: entry `[r, o]` of the stored block is the sum over `k` of `x[r, k] · table[k, o]`, plus `bias[0, o]`. The
  product contracts the block's second axis with the table's first; the change of float format on the way in is the
  identity on the extended reals, and the bias row is repeated along the 128 rows.
-/
import proofs.«138925_j15066745274546_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Whole

open Cert.KernelIdeal Cert.KernelIdeal.Gen
open Idealize.ShloMosaic Idealize.ShloMosaic.ValueIdx
open scoped BigOperators

/-- The product's left operand index at output `i`, contraction index `q`: the output's row, -/
theorem lhs_row (i : S128x4096.Idx) (q : dot_S128x4096_S4096x4096_S128x4096_1_0_0_1_n_n.contr.Idx) :
    (dot_S128x4096_S4096x4096_S128x4096_1_0_0_1_n_n.lhsIdx i q 0).val = (i 0).val := by
  unfold DotDims.lhsIdx
  rw [dif_neg (show ¬(0 : Fin S128x4096.rank) ∈ dot_S128x4096_S4096x4096_S128x4096_1_0_0_1_n_n.lhsBatch by decide),
    dif_pos (show (0 : Fin S128x4096.rank) ∈ dot_S128x4096_S4096x4096_S128x4096_1_0_0_1_n_n.lhsNonContracting by decide)]
  rfl
/-- and the contraction index; -/
theorem lhs_contr (i : S128x4096.Idx) (q : dot_S128x4096_S4096x4096_S128x4096_1_0_0_1_n_n.contr.Idx) :
    (dot_S128x4096_S4096x4096_S128x4096_1_0_0_1_n_n.lhsIdx i q 1).val = (q ⟨0, by decide⟩).val :=
  dot_S128x4096_S4096x4096_S128x4096_1_0_0_1_n_n.lhsIdx_val_of_single rfl i q
/-- the right operand's: the contraction index, -/
theorem rhs_contr (i : S128x4096.Idx) (q : dot_S128x4096_S4096x4096_S128x4096_1_0_0_1_n_n.contr.Idx) :
    (dot_S128x4096_S4096x4096_S128x4096_1_0_0_1_n_n.rhsIdx i q 0).val = (q ⟨0, by decide⟩).val :=
  dot_S128x4096_S4096x4096_S128x4096_1_0_0_1_n_n.rhsIdx_val_of_single rfl i q
/-- and the output's column. -/
theorem rhs_col (i : S128x4096.Idx) (q : dot_S128x4096_S4096x4096_S128x4096_1_0_0_1_n_n.contr.Idx) :
    (dot_S128x4096_S4096x4096_S128x4096_1_0_0_1_n_n.rhsIdx i q 1).val = (i 1).val := by
  unfold DotDims.rhsIdx
  rw [dif_neg (show ¬(1 : Fin S4096x4096.rank) ∈ dot_S128x4096_S4096x4096_S128x4096_1_0_0_1_n_n.rhsBatch by decide),
    dif_pos (show (1 : Fin S4096x4096.rank) ∈ dot_S128x4096_S4096x4096_S128x4096_1_0_0_1_n_n.rhsNonContracting by decide)]
  rfl

/-- Entry `[r, o]` of the stored block: row `r` of the `x` block against column `o` of the table, plus the bias at `o`. -/
theorem product_block_apply (x0 : Vec Ideal S128x4096 .f32) (x1 : Vec Ideal S4096x4096 .bf16) (x2 : Vec Ideal S1x4096 .f32)
    (r : Fin 128) (o : Fin 4096) :
    k1_pay1 (F := Ideal) x0 x1 x2 (ix2 r o)
      = (∑ k : Fin 4096, x0 (ix2 r k) * x1 (ix2 k o)) + x2 (ix2 (0 : Fin 1) o) := by
  unfold k1_pay1
  show FloatOps.matmul (F := Ideal) dot_S128x4096_S4096x4096_S128x4096_1_0_0_1_n_n none
        (truncf .bf16 x0 bitsLt_bf16_f32) (shapeCast S4096x4096 x1 shapeCasts_S4096x4096_S4096x4096)
        (constant S128x4096 .f32 0x00000000#32) (ix2 r o)
      + broadcastTo S128x4096 (shapeCast S1x4096 x2 shapeCasts_S1x4096_S1x4096) broadcasts_S1x4096_S128x4096 (ix2 r o) = _
  rw [shapeCast_self, shapeCast_self]
  refine congrArg₂ (· + ·) ?_ ?_
  · rw [Ideal.matmul_constant_zero_apply, ← Equiv.sum_comp (contrEquiv1 dot_S128x4096_S4096x4096_S128x4096_1_0_0_1_n_n 4096 rfl rfl).symm]
    refine Finset.sum_congr rfl fun k _ => ?_
    have hk := contrEquiv1_symm_val dot_S128x4096_S4096x4096_S128x4096_1_0_0_1_n_n 4096 rfl rfl k
    have el : dot_S128x4096_S4096x4096_S128x4096_1_0_0_1_n_n.lhsIdx (ix2 r o) ((contrEquiv1 dot_S128x4096_S4096x4096_S128x4096_1_0_0_1_n_n 4096 rfl rfl).symm k) = ix2 r k :=
      funext fun a => Fin.ext (by
        match a with
        | ⟨0, _⟩ => exact lhs_row _ _
        | ⟨1, _⟩ => exact (lhs_contr _ _).trans hk)
    have er : dot_S128x4096_S4096x4096_S128x4096_1_0_0_1_n_n.rhsIdx (ix2 r o) ((contrEquiv1 dot_S128x4096_S4096x4096_S128x4096_1_0_0_1_n_n 4096 rfl rfl).symm k) = ix2 k o :=
      funext fun a => Fin.ext (by
        match a with
        | ⟨0, _⟩ => exact (rhs_contr _ _).trans hk
        | ⟨1, _⟩ => exact rhs_col _ _)
    rw [el, er]
    rfl
  · exact broadcastTo_apply x2 broadcasts_S1x4096_S128x4096 (ix2 r o) (ix2 (0 : Fin 1) o) (fun a => by
      match a with
      | ⟨0, _⟩ => show (0 : Nat) = if (1 : Nat) = 1 then 0 else r.val; rw [if_pos rfl]
      | ⟨1, _⟩ => show o.val = if (4096 : Nat) = 1 then 0 else o.val; rw [if_neg (by decide)])

end Cert.KernelIdeal.Whole

end
-- ==== Proof.Spec.lean ====
/-
  The function both programs compute, over the extended reals.

  A weight `a` is quantised to `tern a` = [a > hi] − [a < lo], where `hi` and `lo` are the two binary words
  (the nearest floats to 0.05 and −0.05) that both programs carry; each bracket is the comparison's bit read as 0 or 1.
  The result at row `n`, column `o` is the sum over `k` of `x[n, k] · tern w[o, k]`, plus `b[o]`.
  The first pass of the kernel stores the quantised weights transposed, `table w [k, o] = tern w[o, k]`.
-/
import Idealize.ShloMosaic.PureOps.Ideal
import Idealize.ShloMosaic.PureOps.Ideal.Laws
import Idealize.ShloMosaic.Lib.ValueIdx

noncomputable section

namespace Cert.TernLinear

open Idealize.ShloMosaic Idealize.ShloMosaic.ValueIdx
open scoped BigOperators

/-- The quantiser of one weight: the bit of `a > hi` minus the bit of `a < lo`, each bit read as the real 0 or 1. -/
def tern (a : EReal) : EReal :=
  FloatOps.subf (F := Ideal) (φ := .f32)
    (FloatOps.uitofp (F := Ideal) .f32 (FloatOps.cmpf (F := Ideal) (φ := .f32) .ogt a (FloatOps.ofBits (F := Ideal) .f32 0x3D4CCCCD#32)))
    (FloatOps.uitofp (F := Ideal) .f32 (FloatOps.cmpf (F := Ideal) (φ := .f32) .olt a (FloatOps.ofBits (F := Ideal) .f32 0xBD4CCCCD#32)))

/-- A one-bit word widened with zeros to 32 bits and read as a signed integer is the same real as the bit read unsigned:
    both are 0 for the bit 0 and 1 for the bit 1 (the widened word's sign bit is 0). -/
theorem sitofp_widen_bit (b : BitVec 1) :
    FloatOps.sitofp (F := Ideal) .f32 (b.setWidth 32) = FloatOps.uitofp (F := Ideal) .f32 b := by
  rcases BitVec.eq_zero_or_eq_one b with h | h <;> subst h <;> rfl

/-- The quantised weights, transposed: entry `[k, o]` is the quantised `w[o, k]`. -/
def table (w : (⟨2, ![4096, 4096]⟩ : Shape).Idx → EReal) : (⟨2, ![4096, 4096]⟩ : Shape).Idx → EReal :=
  fun j => tern (w (ix2 (j 1) (j 0)))

theorem table_apply (w : (⟨2, ![4096, 4096]⟩ : Shape).Idx → EReal) (k o : Fin 4096) :
    table w (ix2 k o) = tern (w (ix2 o k)) := rfl

/-- The result: row `n` of `x` against row `o` of the quantised weights, plus the bias at `o`. -/
def out (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * tern (w (ix2 (i 1) k))) + b (ix1 (i 1))

theorem out_apply (x : (⟨2, ![8192, 4096]⟩ : Shape).Idx → EReal) (w : (⟨2, ![4096, 4096]⟩ : Shape).Idx → EReal)
    (b : (⟨1, ![4096]⟩ : Shape).Idx → EReal) (n : Fin 8192) (o : Fin 4096) :
    out x w b (ix2 n o) = (∑ k : Fin 4096, x (ix2 n k) * tern (w (ix2 o k))) + b (ix1 o) := rfl

end Cert.TernLinear

end
-- ==== Proof.TablePayload.lean ====
/-
  The first pass's stored block, read at an index.

  The body quantises its 256 × 4096 block of weights entry by entry and stores the transpose: entry `[k, j]` of the stored
  4096 × 256 block is the quantised entry `[j, k]` of the loaded block. The body widens each comparison bit to a 32-bit
  word and reads it as a signed integer, which is the bit read as 0 or 1; the change of float format is the identity on
  the extended reals.
-/
import proofs.«138925_j15066745274546_2_alg».proof.Proof.Gen.KernelIdeal.Skeleton
import proofs.«138925_j15066745274546_2_alg».proof.Proof.Spec
import Idealize.ShloMosaic.Lib.Pipeline.Value
import Idealize.ShloMosaic.Lib.ValueIdx

noncomputable section

namespace Cert.KernelIdeal.Whole

open Cert.KernelIdeal Cert.KernelIdeal.Gen Cert.TernLinear
open Idealize.ShloMosaic Idealize.ShloMosaic.ValueIdx

/-- Entry `y` of the stored block is the quantised entry `z` of the loaded block, `z` being `y` with its two
    coordinates exchanged. -/
theorem quantise_block_apply (x0 : Vec Ideal S256x4096 .f32) (y : S4096x256.Idx) (z : S256x4096.Idx)
    (h0 : (z 0).val = (y 1).val) (h1 : (z 1).val = (y 0).val) :
    k0_pay1 (F := Ideal) x0 y = tern (x0 z) := by
  unfold k0_pay1
  refine (transpose_apply [1, 0] _ transposes_S256x4096_p1_0_S4096x256 y z (fun b => ?_)).trans ?_
  · match b with
    | ⟨0, _⟩ => exact h1
    | ⟨1, _⟩ => exact h0
  · show FloatOps.subf (F := Ideal) (φ := .f32)
        (FloatOps.sitofp (F := Ideal) .f32 ((FloatOps.cmpf (F := Ideal) (φ := .f32) .ogt (x0 z) (FloatOps.ofBits (F := Ideal) .f32 0x3D4CCCCD#32)).setWidth 32))
        (FloatOps.sitofp (F := Ideal) .f32 ((FloatOps.cmpf (F := Ideal) (φ := .f32) .olt (x0 z) (FloatOps.ofBits (F := Ideal) .f32 0xBD4CCCCD#32)).setWidth 32))
      = tern (x0 z)
    rw [sitofp_widen_bit, sitofp_widen_bit]
    rfl

end Cert.KernelIdeal.Whole

end
-- ==== Proof.TableValue.lean ====
/-
  What the first pass leaves in its result array: the quantised weights, transposed.

  The pass has 16 grid points. Point `t` loads rows `256 t … 256 t + 255` of the weights (all 4096 columns) and writes
  back columns `256 t … 256 t + 255` of the table (all 4096 rows): entry `[k, j]` of the block written is the quantised
  entry `[j, k]` of the block loaded, that is the quantised `w[256 t + j, k]`, which is `table w [k, 256 t + j]`. Every
  column `o` of the table lies in the block of point `o / 256`, so the 16 blocks cover the array and it ends holding
  `table w`.
-/
import proofs.«138925_j15066745274546_2_alg».proof.Proof.Gen.KernelIdeal.Frame
import proofs.«138925_j15066745274546_2_alg».proof.Proof.TablePayload

set_option maxRecDepth 16384

noncomputable section

namespace Cert.KernelIdeal.Whole

open Cert.KernelIdeal Cert.KernelIdeal.Gen Cert.TernLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl

/-- The first pass's block indices, decided over its 16 points: the input block moves down the rows, the output block
    along the columns. -/
theorem pass1_index : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- What point `t` writes back is block `t` of `table w`, `w` the weights as launched. -/
theorem table_flushed (c : Dev nD) (t : Fin cfg0.N) :
    (dat0 (V0 m ρ) c).flushed 1 t
      = ((cfg0.win 1).blk t).view.read (Elt Ideal) (table (m ((c : Thread nD τ).loc main_arg1))) := by
  show (cfg0.win 1).cut (grid0.coords t) ((dat0 (V0 m ρ) c).after 1 t) = _
  rw [after0_1]
  unfold out0_1
  rw [View.canon_unit_zero origin2]
  simp only [View.ld_unit_zero (S := S256x4096) origin2]
  obtain ⟨e0, e1, e2, e3⟩ := pass1_index t
  funext y
  obtain ⟨d, j, rfl⟩ : ∃ (d : Fin 4096) (j : Fin 256), y = ix2 d j := ⟨y 0, y 1, eq_ix2 y⟩
  show k0_pay1 (F := Ideal) (iblk0 (V0 m ρ) c 0 t) (ix2 d j)
      = table (m ((c : Thread nD τ).loc main_arg1)) (((cfg0.win 1).blk t).view.emb (ix2 d j))
  refine (quantise_block_apply _ (ix2 d j) (ix2 j d) rfl rfl).trans ?_
  unfold table
  refine congrArg tern ?_
  unfold iblk0
  rw [View.read_apply]
  show m ((c : Thread nD τ).loc main_arg1) (((cfg0.win 0).blk t).view.emb (ix2 j d)) = _
  -- both indices are (256 t + j, d): a block's coordinate is block index × block size + the coordinate inside
  refine congrArg (m ((c : Thread nD τ).loc main_arg1)) (funext fun a => Fin.ext ?_)
  match a with
  | ⟨0, _⟩ =>
    show win0_0.index t (0 : Fin 2) * 256 + 1 * j.val = win0_1.index t (1 : Fin 2) * 256 + 1 * j.val
    rw [e0, e3]
  | ⟨1, _⟩ =>
    show win0_0.index t (1 : Fin 2) * 4096 + 1 * d.val = win0_1.index t (0 : Fin 2) * 4096 + 1 * d.val
    rw [e1, e2]

/-- An index of the table is in point `t`'s output block iff each coordinate is in the block's range on its axis. -/
theorem table_mem_blk (t : Fin cfg0.N) (i : S4096x4096.Idx) :
    i ∈ ((cfg0.win 1).blk t).view.set ↔ ∀ a : Fin 2, win0_1.index t a * S4096x256.size a ≤ (i a).val
      ∧ (i a).val < win0_1.index t a * S4096x256.size a + S4096x256.size a := by
  show i ∈ ((View.whole main_v0).slice (win0_1.rect t)).set ↔ _
  rw [View.set_slice_whole, Rect.mem_set_unit]
  exact Iff.rfl

/-- Every index of the table is in the output block of the point its column selects. -/
theorem table_cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 16 := N_0
  have hlt : (i 1).val / 256 < cfg0.N := by rw [hN]; omega
  obtain ⟨e0, e1, e2, e3⟩ := pass1_index ⟨(i 1).val / 256, hlt⟩
  refine ⟨⟨(i 1).val / 256, hlt⟩, flush0_1 _, ?_⟩
  rw [table_mem_blk]
  intro a
  match a with
  | ⟨0, _⟩ =>
    show win0_1.index ⟨(i 1).val / 256, hlt⟩ (0 : Fin 2) * 4096 ≤ (i 0).val
      ∧ (i 0).val < win0_1.index ⟨(i 1).val / 256, hlt⟩ (0 : Fin 2) * 4096 + 4096
    rw [e2]; omega
  | ⟨1, _⟩ =>
    show win0_1.index ⟨(i 1).val / 256, hlt⟩ (1 : Fin 2) * 256 ≤ (i 1).val
      ∧ (i 1).val < win0_1.index ⟨(i 1).val / 256, hlt⟩ (1 : Fin 2) * 256 + 256
    rw [e3]
    show (i 1).val / 256 * 256 ≤ (i 1).val ∧ (i 1).val < (i 1).val / 256 * 256 + 256
    omega

/-- The first pass's result array after its 16 write-backs: the transposed quantised weights. -/
theorem table_final (c : Dev nD) :
    (dat0 (V0 m ρ) c).arrAt 1 cfg0.N = table (m ((c : Thread nD τ).loc main_arg1)) :=
  (dat0 (V0 m ρ) c).arrAt_eq_of_cover 1 (table (m ((c : Thread nD τ).loc main_arg1)))
    (fun t _ => table_flushed m ρ c t) table_cover

end Cert.KernelIdeal.Whole

end
-- ==== Proof.ProductValue.lean ====
/-
  What the second pass leaves in the result array: `out x w b`.

  The pass is entered with `x` as launched, with the first pass's array, which holds `table w`, and with the bias recast
  from [4096] to [1, 4096] by the host. It has 64 grid points. Point `t` loads rows `128 t … 128 t + 127` of `x`, the whole
  table and the whole bias row, and writes back rows `128 t … 128 t + 127` of the result: entry `[r, o]` of the block
  written is the sum over `k` of `x[128 t + r, k] · table w [k, o]`, plus `b[o]`, and `table w [k, o]` is the quantised
  `w[o, k]`: that is `out x w b` at `[128 t + r, o]`. Every row `n` lies in the block of point `n / 128`, so the 64
  blocks cover the array and it ends holding `out x w b`.
-/
import proofs.«138925_j15066745274546_2_alg».proof.Proof.Gen.KernelIdeal.Frame
import proofs.«138925_j15066745274546_2_alg».proof.Proof.ProductPayload
import proofs.«138925_j15066745274546_2_alg».proof.Proof.TableValue
import Idealize.ShloMosaic.Lib.StableHlo.Run
import Idealize.ShloMosaic.Lib.ValueLayout

set_option maxRecDepth 16384

noncomputable section

namespace Cert.KernelIdeal.Whole

open Cert.KernelIdeal Cert.KernelIdeal.Gen Cert.TernLinear
open Idealize.ShloMosaic Idealize.ShloMosaic.TcCoe Idealize.ShloMosaic.ValueIdx Idealize.SL.Sem
open Idealize.ShloMosaic.StableHlo
open Idealize.ShloMosaic.Pipeline (Dat)
open scoped BigOperators

variable (m : (ℓ : Loc nD τ sig) → Buf (Elt Ideal) ℓ) (ρ : Dev nD → PrngReg)

/-! ## What the second pass is entered with -/

/-- `x` is as launched: neither the first pass nor the reshape writes it. -/
theorem entry_x (c : Dev nD) : V2 m ρ c main_arg0 = m ((c : Thread nD τ).loc main_arg0) := by
  show StableHlo.after hostOps1 (W1 m ρ c) (Proc.devRef .tc main_arg0) = _
  after_results
  exact W1_of_ne m ρ c main_arg0 (by decide)

/-- The first pass's array holds the transposed quantised weights; the reshape does not write it. -/
theorem entry_table (c : Dev nD) : V2 m ρ c main_v0 = table (m ((c : Thread nD τ).loc main_arg1)) := by
  show StableHlo.after hostOps1 (W1 m ρ c) (Proc.devRef .tc main_v0) = _
  after_results
  exact (W1_arr m ρ c 1).trans (table_final m ρ c)

/-- The bias row is the bias as launched, recast from [4096] to [1, 4096]. -/
theorem entry_bias (c : Dev nD) :
    V2 m ρ c main_v1 = shapeCast S1x4096 (m ((c : Thread nD τ).loc main_arg2)) shapeCasts_S4096_S1x4096 := by
  show StableHlo.after hostOps1 (W1 m ρ c) (Proc.devRef .tc main_v1) = _
  after_results
  rw [W1_of_ne m ρ c main_arg2 (by decide)]
  rfl

/-! ## The blocks of a point -/

/-- The second pass's block indices, decided over its 64 points: the `x` block and the result block move down the
    rows; the table and the bias row are always block zero. -/
theorem pass2_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of point `t`'s `x` block is row `128 t + r` of `x`. -/
theorem x_block_apply (c : Dev nD) (t : Fin cfg1.N) (r : Fin 128) (k : Fin 4096) (n : Fin 8192)
    (hn : n.val = t.val * 128 + r.val) :
    iblk1 (V2 m ρ) c 0 t (ix2 r k) = m ((c : Thread nD τ).loc main_arg0) (ix2 n k) := by
  obtain ⟨e0, e1, -, -, -, -, -, -⟩ := pass2_index t
  unfold iblk1
  rw [View.read_apply]
  show V2 m ρ c main_arg0 (((cfg1.win 0).blk t).view.emb (ix2 r k)) = _
  rw [entry_x]
  refine congrArg (m ((c : Thread nD τ).loc main_arg0)) (funext fun a => Fin.ext ?_)
  match a with
  | ⟨0, _⟩ =>
    show win1_0.index t (0 : Fin 2) * 128 + 1 * r.val = n.val
    rw [e0, hn]; omega
  | ⟨1, _⟩ =>
    show win1_0.index t (1 : Fin 2) * 4096 + 1 * k.val = k.val
    rw [e1]; omega

/-- The table block of any point is the whole table. -/
theorem table_block_apply (c : Dev nD) (t : Fin cfg1.N) (k o : Fin 4096) :
    iblk1 (V2 m ρ) c 1 t (ix2 k o) = tern (m ((c : Thread nD τ).loc main_arg1) (ix2 o k)) := by
  obtain ⟨-, -, e2, e3, -, -, -, -⟩ := pass2_index t
  unfold iblk1
  rw [View.read_apply]
  show V2 m ρ c main_v0 (((cfg1.win 1).blk t).view.emb (ix2 k o)) = _
  rw [entry_table]
  refine (congrArg (table (m ((c : Thread nD τ).loc main_arg1))) (funext fun a => Fin.ext ?_)).trans (table_apply _ k o)
  match a with
  | ⟨0, _⟩ =>
    show win1_1.index t (0 : Fin 2) * 4096 + 1 * k.val = k.val
    rw [e2]; omega
  | ⟨1, _⟩ =>
    show win1_1.index t (1 : Fin 2) * 4096 + 1 * o.val = o.val
    rw [e3]; omega

/-- The bias block of any point is the whole bias row, whose entry `[0, o]` is `b[o]`. -/
theorem bias_block_apply (c : Dev nD) (t : Fin cfg1.N) (o : Fin 4096) :
    iblk1 (V2 m ρ) c 2 t (ix2 (0 : Fin 1) o) = m ((c : Thread nD τ).loc main_arg2) (ix1 o) := by
  obtain ⟨-, -, -, -, e4, e5, -, -⟩ := pass2_index t
  unfold iblk1
  rw [View.read_apply]
  show V2 m ρ c main_v1 (((cfg1.win 2).blk t).view.emb (ix2 (0 : Fin 1) o)) = _
  rw [entry_bias]
  refine (congrArg (shapeCast S1x4096 (m ((c : Thread nD τ).loc main_arg2)) shapeCasts_S4096_S1x4096)
    (funext fun a => Fin.ext ?_)).trans (shapeCast_a_1a_apply _ shapeCasts_S4096_S1x4096 (0 : Fin 1) o)
  match a with
  | ⟨0, _⟩ =>
    show win1_2.index t (0 : Fin 2) * 1 + 1 * 0 = 0
    rw [e4]
  | ⟨1, _⟩ =>
    show win1_2.index t (1 : Fin 2) * 4096 + 1 * o.val = o.val
    rw [e5]; omega

/-! ## From the blocks to the array -/

/-- What point `t` writes back is block `t` of `out x w b`, the three arguments as launched. -/
theorem out_flushed (c : Dev nD) (t : Fin cfg1.N) :
    (dat1 (V2 m ρ) c).flushed 3 t
      = ((cfg1.win 3).blk t).view.read (Elt Ideal)
          (out (m ((c : Thread nD τ).loc main_arg0)) (m ((c : Thread nD τ).loc main_arg1)) (m ((c : Thread nD τ).loc main_arg2))) := by
  show (cfg1.win 3).cut (grid1.coords t) ((dat1 (V2 m ρ) c).after 3 t) = _
  rw [after1_3]
  unfold out1_3
  rw [View.canon_unit_zero origin2]
  simp only [View.ld_unit_zero (S := S128x4096) origin2, View.ld_unit_zero (S := S4096x4096) origin2,
    View.ld_unit_zero (S := S1x4096) origin2]
  obtain ⟨-, -, -, -, -, -, e6, e7⟩ := pass2_index t
  have hN : cfg1.N = 64 := N_1
  have ht : t.val < 64 := hN ▸ t.isLt
  funext y
  obtain ⟨r, o, rfl⟩ : ∃ (r : Fin 128) (o : Fin 4096), y = ix2 r o := ⟨y 0, y 1, eq_ix2 y⟩
  have hr : r.val < 128 := r.isLt
  -- the entry written is at row 128 t + r, column o, of the result array
  have hemb : ((cfg1.win 3).blk t).view.emb (ix2 r o)
      = ix2 (⟨t.val * 128 + r.val, by omega⟩ : Fin 8192) o := funext fun a => Fin.ext (by
    match a with
    | ⟨0, _⟩ =>
      show win1_3.index t (0 : Fin 2) * 128 + 1 * r.val = t.val * 128 + r.val
      rw [e6]; omega
    | ⟨1, _⟩ =>
      show win1_3.index t (1 : Fin 2) * 4096 + 1 * o.val = o.val
      rw [e7]; omega)
  show k1_pay1 (F := Ideal) (iblk1 (V2 m ρ) c 0 t) (iblk1 (V2 m ρ) c 1 t) (iblk1 (V2 m ρ) c 2 t) (ix2 r o)
      = out (m ((c : Thread nD τ).loc main_arg0)) (m ((c : Thread nD τ).loc main_arg1)) (m ((c : Thread nD τ).loc main_arg2))
          (((cfg1.win 3).blk t).view.emb (ix2 r o))
  rw [hemb, out_apply]
  refine (product_block_apply _ _ _ r o).trans ?_
  refine congrArg₂ (· + ·) (Finset.sum_congr rfl fun k _ => congrArg₂ (· * ·) ?_ ?_) ?_
  · exact x_block_apply m ρ c t r k _ rfl
  · exact table_block_apply m ρ c t k o
  · exact bias_block_apply m ρ c t o

/-- An index of the result is in point `t`'s output block iff each coordinate is in the block's range on its axis. -/
theorem out_mem_blk (t : Fin cfg1.N) (i : S8192x4096.Idx) :
    i ∈ ((cfg1.win 3).blk t).view.set ↔ ∀ a : Fin 2, win1_3.index t a * S128x4096.size a ≤ (i a).val
      ∧ (i a).val < win1_3.index t a * S128x4096.size a + S128x4096.size a := by
  show i ∈ ((View.whole main_v2).slice (win1_3.rect t)).set ↔ _
  rw [View.set_slice_whole, Rect.mem_set_unit]
  exact Iff.rfl

/-- Every index of the result is in the output block of the point its row selects. -/
theorem out_cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 64 := N_1
  have hlt : (i 0).val / 128 < cfg1.N := by rw [hN]; omega
  obtain ⟨-, -, -, -, -, -, e6, e7⟩ := pass2_index ⟨(i 0).val / 128, hlt⟩
  refine ⟨⟨(i 0).val / 128, hlt⟩, flush1_3 _, ?_⟩
  rw [out_mem_blk]
  intro a
  match a with
  | ⟨0, _⟩ =>
    show win1_3.index ⟨(i 0).val / 128, hlt⟩ (0 : Fin 2) * 128 ≤ (i 0).val
      ∧ (i 0).val < win1_3.index ⟨(i 0).val / 128, hlt⟩ (0 : Fin 2) * 128 + 128
    rw [e6]
    show (i 0).val / 128 * 128 ≤ (i 0).val ∧ (i 0).val < (i 0).val / 128 * 128 + 128
    omega
  | ⟨1, _⟩ =>
    show win1_3.index ⟨(i 0).val / 128, hlt⟩ (1 : Fin 2) * 4096 ≤ (i 1).val
      ∧ (i 1).val < win1_3.index ⟨(i 0).val / 128, hlt⟩ (1 : Fin 2) * 4096 + 4096
    rw [e7]; omega

/-- The result array after the second pass's 64 write-backs. -/
theorem out_final (c : Dev nD) :
    (dat1 (V2 m ρ) c).arrAt 3 cfg1.N
      = out (m ((c : Thread nD τ).loc main_arg0)) (m ((c : Thread nD τ).loc main_arg1)) (m ((c : Thread nD τ).loc main_arg2)) :=
  (dat1 (V2 m ρ) c).arrAt_eq_of_cover 3 _ (fun t _ => out_flushed m ρ c t) out_cover

end Cert.KernelIdeal.Whole

end
-- ==== Proof.RefValue.lean ====
/-
  The reference's result is the specification's function of its three arguments, index by index.

  At row `n`, column `o` the host's contraction is the sum over `k` of `x[n, k]` times the quantised `w[o, k]` (both
  operands contracted along their second axis), each quantised weight the difference of the two comparison bits read as
  0 or 1 against the two threshold words; the bias is broadcast along the rows, so it is read at `o`.
-/
import proofs.«138925_j15066745274546_2_alg».proof.Proof.Gen.ReferenceIdeal.Read
import proofs.«138925_j15066745274546_2_alg».proof.Proof.Spec

noncomputable section

namespace Cert.ReferenceIdeal.RefValue

open Cert.ReferenceIdeal Cert.ReferenceIdeal.Read Cert.TernLinear
open Idealize.ShloMosaic Idealize.ShloMosaic.ValueIdx
open scoped BigOperators

/-- A quantised weight of the reference at an index is the quantiser applied to the weight there. -/
theorem quantised_apply (w : (⟨S4096x4096, .f32⟩ : BufTy).Contents (Elt Ideal)) (j : S4096x4096.Idx) :
    val_main_v6 (F := Ideal) w j = tern (w j) := by
  rw [val_main_v6_apply, val_main_v2_apply, val_main_v5_apply, val_main_v1_apply, val_main_v4_apply,
    val_main_v0_apply, val_main_v3_apply, val_main_cst_apply, val_main_cst_0_apply]
  rfl

/-- The reference's last stage is `out` of the arguments. -/
theorem result_eq (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v10 (F := Ideal) x w b = out x w b := by
  funext i
  obtain ⟨n, o, rfl⟩ : ∃ (n : Fin 8192) (o : Fin 4096), i = ix2 n o := ⟨i 0, i 1, eq_ix2 i⟩
  rw [out_apply, val_main_v10_apply, val_main_v7_apply, val_main_v9_apply, val_main_v8_apply]
  have el : ∀ k : Fin 4096, lidx_main_v7 (ix2 n o) k = ix2 n k := fun k =>
    funext fun a => Fin.ext (by match a with | ⟨0, _⟩ => rfl | ⟨1, _⟩ => rfl)
  have er : ∀ k : Fin 4096, ridx_main_v7 (ix2 n o) k = ix2 o k := fun k =>
    funext fun a => Fin.ext (by match a with | ⟨0, _⟩ => rfl | ⟨1, _⟩ => rfl)
  have eb : idx_main_v8 (idx_main_v9 (ix2 n o)) = ix1 o :=
    funext fun a => Fin.ext (by match a with | ⟨0, _⟩ => rfl)
  rw [eb]
  refine congrArg (· + b (ix1 o)) (Finset.sum_congr rfl fun k _ => ?_)
  rw [el k, er k, quantised_apply]

end Cert.ReferenceIdeal.RefValue

end
-- ==== Proof.lean ====
/-
  A linear layer with ternary weights: the kernel and its reference compute one function over the extended reals.

  Each weight is quantised to [w > hi] − [w < lo], the two thresholds being the same two binary words in both programs, and
  the result at row `n`, column `o` is the sum over `k` of `x[n, k]` times the quantised `w[o, k]`, plus `b[o]`
  (Proof/Spec.lean: `out`). The reference contracts `x` with the quantised weights along their second axes and adds the bias
  broadcast along the rows (Proof/RefValue.lean). The kernel works in two passes: the first writes the quantised weights
  transposed, 256 columns per grid point (Proof/TableValue.lean); the second multiplies 128 rows of `x` per grid point by
  that table into a zero accumulator and adds the bias row (Proof/ProductValue.lean). The two sums range over the same index
  `k` with the same terms, so no rearrangement and no finiteness of the inputs is needed; the changes of float format are the
  identity on the extended reals. The idealized kernel is the kernel's own text read over the extended reals: nothing was
  rewritten, so there is nothing to preserve.
-/
import proofs.«138925_j15066745274546_2_alg».proof.Defs
import proofs.«138925_j15066745274546_2_alg».proof.Proof.Gen.Kernel
import proofs.«138925_j15066745274546_2_alg».proof.Proof.Gen.Kernel.Frame
import proofs.«138925_j15066745274546_2_alg».proof.Proof.Gen.KernelIdeal
import proofs.«138925_j15066745274546_2_alg».proof.Proof.Gen.KernelIdeal.Frame
import proofs.«138925_j15066745274546_2_alg».proof.Proof.Gen.ReferenceIdeal
import proofs.«138925_j15066745274546_2_alg».proof.Proof.Gen.ReferenceIdeal.Run
import proofs.«138925_j15066745274546_2_alg».proof.Proof.Gen.ReferenceIdeal.Read
import proofs.«138925_j15066745274546_2_alg».proof.Proof.Gen.Pre_finite_inputs
import proofs.«138925_j15066745274546_2_alg».proof.Proof.KernelRun
import proofs.«138925_j15066745274546_2_alg».proof.Proof.ProductValue
import proofs.«138925_j15066745274546_2_alg».proof.Proof.RefValue
import Idealize.ShloMosaic.Adequacy
import Idealize.ShloMosaic.Init

noncomputable section

namespace Cert.Proof

open Idealize.ShloMosaic Idealize.SL.Sem Cert.TernLinear

/-- The kernel as printed runs, and its arguments end as launched. -/
theorem frame_kernel [Cert.Kernel.Facts] [Cert.Pre_finite_inputs.Facts] : Cert.frame_Kernel :=
  fun m ρ _ => Cert.Kernel.Gen.frame m ρ

/-- The same of the kernel read over the extended reals. -/
theorem frame_ideal [Cert.KernelIdeal.Facts] [Cert.Pre_finite_inputs.Facts] : Cert.frame_KernelIdeal :=
  fun m ρ _ => Cert.KernelIdeal.Gen.frame m ρ

/-- The reference is a line of host operations: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories agreeing on the three arguments both programs end with the result array at `out x w b`: the kernel's
    by its two passes, the reference's by its operations read index by index. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono
      (fun _ h c => ⟨(h c).1.trans (Cert.KernelIdeal.Whole.out_final m ρ c), (h c).2⟩)
      (Cert.KernelIdeal.Whole.run_named m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
